-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x1000x256 : Shape := ⟨3, ![64, 1000, 256]⟩
abbrev S2048 : Shape := ⟨1, ![2048]⟩
abbrev S_ : Shape := ⟨0, ![]⟩

class Facts : Prop where
  bcast_S_S64x1000x256 : S_.BroadcastsInDim S64x1000x256 (![] : Fin 0 → Fin S64x1000x256.rank)
  reducesTo_S64x1000x256_S_d0_1_2 : S64x1000x256.ReducesTo [0, 1, 2] S_
  h_S_ : 0 < S_.numel
  bcast_S_S2048 : S_.BroadcastsInDim S2048 (![] : Fin 0 → Fin S2048.rank)
  reducesTo_S2048_S_d0 : S2048.ReducesTo [0] S_

variable [Facts]

def fn_part1 {F : FTy → Type} [FloatOps F] (main_v13 : IVec S_ 1) (main_v16 : IVec S2048 1) : IVec S_ 1 :=
  let main_c_5 : IVec S_ 1 := constantI S_ 1 1#1
  let main_v17 : IVec S_ 1 := (fun x v => Host.reduce IntOp.andi x v reducesTo_S2048_S_d0 h_S_) main_v16 main_c_5
  let main_v18 : IVec S_ 1 := andi main_v13 main_v17
  main_v18

def fn {F : FTy → Type} [FloatOps F] (main_arg0 : FVec F S64x1000x256 .f32) (main_arg1 : FVec F S2048 .f32) (main_arg2 : FVec F S2048 .f32) (main_arg3 : FVec F S2048 .f32) : IVec S_ 1 :=
  let main_v0 : FVec F S64x1000x256 .f32 := Host.absf main_arg0
  let main_cst : FVec F S_ .f32 := constant S_ .f32 0x7F800000#32
  let main_v1 : FVec F S64x1000x256 .f32 := broadcastInDim S64x1000x256 ![] bcast_S_S64x1000x256 main_cst
  let main_v2 : IVec S64x1000x256 1 := cmpf .olt main_v0 main_v1
  let main_c : IVec S_ 1 := constantI S_ 1 1#1
  let main_v3 : IVec S_ 1 := (fun x v => Host.reduce IntOp.andi x v reducesTo_S64x1000x256_S_d0_1_2 h_S_) main_v2 main_c
  let main_v4 : FVec F S2048 .f32 := Host.absf main_arg1
  let main_cst_0 : FVec F S_ .f32 := constant S_ .f32 0x7F800000#32
  let main_v5 : FVec F S2048 .f32 := broadcastInDim S2048 ![] bcast_S_S2048 main_cst_0
  let main_v6 : IVec S2048 1 := cmpf .olt main_v4 main_v5
  let main_c_1 : IVec S_ 1 := constantI S_ 1 1#1
  let main_v7 : IVec S_ 1 := (fun x v => Host.reduce IntOp.andi x v reducesTo_S2048_S_d0 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S2048 .f32 := Host.absf main_arg3
  let main_cst_4 : FVec F S_ .f32 := constant S_ .f32 0x7F800000#32
  let main_v15 : FVec F S2048 .f32 := broadcastInDim S2048 ![] bcast_S_S2048 main_cst_4
  let main_v16 : IVec S2048 1 := cmpf .olt main_v14 main_v15
  fn_part1 (F := F) main_v13 main_v16
-- ==== Kernel.lean ====
abbrev S64x1000x256 : Shape := ⟨3, ![64, 1000, 256]⟩
abbrev S2048 : Shape := ⟨1, ![2048]⟩
abbrev S256x8 : Shape := ⟨2, ![256, 8]⟩
abbrev S64x256x8 : Shape := ⟨3, ![64, 256, 8]⟩
abbrev S4x1000x256 : Shape := ⟨3, ![4, 1000, 256]⟩
abbrev S4x256x8 : Shape := ⟨3, ![4, 256, 8]⟩
abbrev S256x1 : Shape := ⟨2, ![256, 1]⟩
abbrev S256 : Shape := ⟨1, ![256]⟩
abbrev S1x1x256 : Shape := ⟨3, ![1, 1, 256]⟩
abbrev S4x256 : Shape := ⟨2, ![4, 256]⟩
abbrev S4x256x1 : Shape := ⟨3, ![4, 256, 1]⟩
abbrev S64x2048 : Shape := ⟨2, ![64, 2048]⟩

abbrev nBuf : Space → Nat
  | .hbm => 9
  | .vmem => 7
  | .smem => 0
  | _ => 0

abbrev bufTy : (tb : Table) → Fin (tcTables nBuf tb) → BufTy
  | .hbm, ⟨0, _⟩ => ⟨S64x1000x256, .f32⟩
  | .hbm, ⟨1, _⟩ => ⟨S2048, .f32⟩
  | .hbm, ⟨2, _⟩ => ⟨S2048, .f32⟩
  | .hbm, ⟨3, _⟩ => ⟨S2048, .f32⟩
  | .hbm, ⟨4, _⟩ => ⟨S256x8, .f32⟩
  | .hbm, ⟨5, _⟩ => ⟨S256x8, .f32⟩
  | .hbm, ⟨6, _⟩ => ⟨S256x8, .f32⟩
  | .hbm, ⟨7, _⟩ => ⟨S64x256x8, .f32⟩
  | .hbm, ⟨8, _⟩ => ⟨S64x2048, .f32⟩
  | .local _ .vmem, ⟨0, _⟩ => ⟨S4x1000x256, .f32⟩
  | .local _ .vmem, ⟨1, _⟩ => ⟨S4x1000x256, .f32⟩
  | .local _ .vmem, ⟨2, _⟩ => ⟨S256x8, .f32⟩
  | .local _ .vmem, ⟨3, _⟩ => ⟨S256x8, .f32⟩
  | .local _ .vmem, ⟨4, _⟩ => ⟨S256x8, .f32⟩
  | .local _ .vmem, ⟨5, _⟩ => ⟨S4x256x8, .f32⟩
  | .local _ .vmem, ⟨6, _⟩ => ⟨S4x256x8, .f32⟩
  | _, _ => ⟨S64x1000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x1000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4x256x8 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S2048_S256x8 : S2048.ShapeCasts S256x8
  inb_S4x1000x256_S4x1000x256_0_0_0 : ∀ a, (![0, 0, 0] : Fin 3 → Nat) a + S4x1000x256.size a ≤ S4x1000x256.size a
  h_S4x1000x256 : 0 < S4x1000x256.numel
  inb_S256x8_S256x8_0_0 : ∀ a, (![0, 0] : Fin 2 → Nat) a + S256x8.size a ≤ S256x8.size a
  h_S256x8 : 0 < S256x8.numel
  shapeCasts_S256x8_S256x8 : S256x8.ShapeCasts S256x8
  slices_S256x8_o0_0_S256x1 : S256x8.Slices ![0, 0] S256x1
  shapeCasts_S256x1_S256 : S256x1.ShapeCasts S256
  shapeCasts_S256_S1x1x256 : S256.ShapeCasts S1x1x256
  broadcasts_S1x1x256_S4x1000x256 : S1x1x256.Broadcasts S4x1000x256
  reduces_S4x1000x256_S4x256 : S4x1000x256.Reduces [1] S4x256
  slices_S256x8_o0_1_S256x1 : S256x8.Slices ![0, 1] S256x1
  slices_S256x8_o0_2_S256x1 : S256x8.Slices ![0, 2] S256x1
  slices_S256x8_o0_3_S256x1 : S256x8.Slices ![0, 3] S256x1
  slices_S256x8_o0_4_S256x1 : S256x8.Slices ![0, 4] S256x1
  slices_S256x8_o0_5_S256x1 : S256x8.Slices ![0, 5] S256x1
  slices_S256x8_o0_6_S256x1 : S256x8.Slices ![0, 6] S256x1
  slices_S256x8_o0_7_S256x1 : S256x8.Slices ![0, 7] S256x1
  shapeCasts_S4x256_S4x256x1 : S4x256.ShapeCasts S4x256x1
  concatenates_S4x256x1_S4x256x1_S4x256x1_S4x256x1_S4x256x1_S4x256x1_S4x256x1_S4x256x1_S4x256x8_d2 : Shape.Concatenates [S4x256x1, S4x256x1, S4x256x1, S4x256x1, S4x256x1, S4x256x1, S4x256x1, S4x256x1] S4x256x8 2
  inb_S4x256x8_S4x256x8_0_0_0 : ∀ a, (![0, 0, 0] : Fin 3 → Nat) a + S4x256x8.size a ≤ S4x256x8.size a
  h_S4x256x8 : 0 < S4x256x8.numel
  shapeCasts_S64x256x8_S64x2048 : S64x256x8.ShapeCasts S64x2048
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x1000x256.size a ≤ S64x1000x256.size a
  hwx0_0 : ∀ i : grid0.Coords, EltTy.bits .f32 = 32 ∨ (Rect.block (s := S64x1000x256) S4x1000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x8.size a ≤ S256x8.size a
  hwx0_1 : ∀ i : grid0.Coords, EltTy.bits .f32 = 32 ∨ (Rect.block (s := S256x8) S256x8.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x8.size a ≤ S256x8.size a
  hwx0_2 : ∀ i : grid0.Coords, EltTy.bits .f32 = 32 ∨ (Rect.block (s := S256x8) S256x8.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x8.size a ≤ S256x8.size a
  hwx0_3 : ∀ i : grid0.Coords, EltTy.bits .f32 = 32 ∨ (Rect.block (s := S256x8) S256x8.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4x256x8.size a ≤ S64x256x8.size a
  hwx0_4 : ∀ i : grid0.Coords, EltTy.bits .f32 = 32 ∨ (Rect.block (s := S64x256x8) S4x256x8.size (cc0_transform_4 i) (hinb0_4 i)).WholeWords (EltTy.packing .f32)

variable [Facts₀]

abbrev win0_0 : Pipeline.Window sig grid0 :=
  Pipeline.Window.ofSpec (Memref.whole main_arg0) S4x1000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x8.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S256x8.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S256x8.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S4x256x8.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S64x1000x256 : Shape := ⟨3, ![64, 1000, 256]⟩
abbrev S2048 : Shape := ⟨1, ![2048]⟩
abbrev S256x8 : Shape := ⟨2, ![256, 8]⟩
abbrev S64x1000x256x1 : Shape := ⟨4, ![64, 1000, 256, 1]⟩
abbrev S1x1x256x8 : Shape := ⟨4, ![1, 1, 256, 8]⟩
abbrev S64x1000x256x8 : Shape := ⟨4, ![64, 1000, 256, 8]⟩
abbrev S_ : Shape := ⟨0, ![]⟩
abbrev S64x256x8 : Shape := ⟨3, ![64, 256, 8]⟩
abbrev S64x2048 : Shape := ⟨2, ![64, 2048]⟩

abbrev nBuf : Space → Nat
  | .hbm => 28
  | .vmem => 0
  | .smem => 0
  | _ => 0

abbrev bufTy : (tb : Table) → Fin (tcTables nBuf tb) → BufTy
  | .hbm, ⟨0, _⟩ => ⟨S64x1000x256, .f32⟩
  | .hbm, ⟨1, _⟩ => ⟨S2048, .f32⟩
  | .hbm, ⟨2, _⟩ => ⟨S2048, .f32⟩
  | .hbm, ⟨3, _⟩ => ⟨S2048, .f32⟩
  | .hbm, ⟨4, _⟩ => ⟨S256x8, .f32⟩
  | .hbm, ⟨5, _⟩ => ⟨S256x8, .f32⟩
  | .hbm, ⟨6, _⟩ => ⟨S256x8, .f32⟩
  | .hbm, ⟨7, _⟩ => ⟨S64x1000x256x1, .f32⟩
  | .hbm, ⟨8, _⟩ => ⟨S1x1x256x8, .f32⟩
  | .hbm, ⟨9, _⟩ => ⟨S64x1000x256x8, .f32⟩
  | .hbm, ⟨10, _⟩ => ⟨S64x1000x256x8, .f32⟩
  | .hbm, ⟨11, _⟩ => ⟨S64x1000x256x8, .f32⟩
  | .hbm, ⟨12, _⟩ => ⟨S64x1000x256x8, .f32⟩
  | .hbm, ⟨13, _⟩ => ⟨S1x1x256x8, .f32⟩
  | .hbm, ⟨14, _⟩ => ⟨S64x1000x256x8, .f32⟩
  | .hbm, ⟨15, _⟩ => ⟨S64x1000x256x8, .f32⟩
  | .hbm, ⟨16, _⟩ => ⟨S1x1x256x8, .f32⟩
  | .hbm, ⟨17, _⟩ => ⟨S64x1000x256x8, .f32⟩
  | .hbm, ⟨18, _⟩ => ⟨S64x1000x256x8, .f32⟩
  | .hbm, ⟨19, _⟩ => ⟨S_, .f32⟩
  | .hbm, ⟨20, _⟩ => ⟨S64x1000x256x8, .f32⟩
  | .hbm, ⟨21, _⟩ => ⟨S64x1000x256x8, .f32⟩
  | .hbm, ⟨22, _⟩ => ⟨S_, .f32⟩
  | .hbm, ⟨23, _⟩ => ⟨S64x256x8, .f32⟩
  | .hbm, ⟨24, _⟩ => ⟨S_, .f32⟩
  | .hbm, ⟨25, _⟩ => ⟨S64x256x8, .f32⟩
  | .hbm, ⟨26, _⟩ => ⟨S64x256x8, .f32⟩
  | .hbm, ⟨27, _⟩ => ⟨S64x2048, .f32⟩
  | _, _ => ⟨S64x1000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_call0_cst : Ref sig .tc := ⟨.hbm, 19, rfl⟩
abbrev main_call0_v0 : Ref sig .tc := ⟨.hbm, 20, rfl⟩
abbrev main_v15 : Ref sig .tc := ⟨.hbm, 21, rfl⟩
abbrev main_cst : Ref sig .tc := ⟨.hbm, 22, rfl⟩
abbrev main_v16 : Ref sig .tc := ⟨.hbm, 23, rfl⟩
abbrev main_cst_0 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]

class Facts₀ : Prop where
  shapeCasts_S2048_S256x8 : S2048.ShapeCasts S256x8
  bcast_S64x1000x256_S64x1000x256x1_0_1_2 : S64x1000x256.BroadcastsInDim S64x1000x256x1 (![0, 1, 2] : Fin 3 → Fin S64x1000x256x1.rank)
  bcast_S256x8_S1x1x256x8_2_3 : S256x8.BroadcastsInDim S1x1x256x8 (![2, 3] : Fin 2 → Fin S1x1x256x8.rank)
  bcast_S64x1000x256x1_S64x1000x256x8_0_1_2_3 : S64x1000x256x1.BroadcastsInDim S64x1000x256x8 (![0, 1, 2, 3] : Fin 4 → Fin S64x1000x256x8.rank)
  bcast_S1x1x256x8_S64x1000x256x8_0_1_2_3 : S1x1x256x8.BroadcastsInDim S64x1000x256x8 (![0, 1, 2, 3] : Fin 4 → Fin S64x1000x256x8.rank)
  bcast_S_S64x1000x256x8 : S_.BroadcastsInDim S64x1000x256x8 (![] : Fin 0 → Fin S64x1000x256x8.rank)
  reducesTo_S64x1000x256x8_S64x256x8_d1 : S64x1000x256x8.ReducesTo [1] S64x256x8
  h_S_ : 0 < S_.numel
  bcast_S_S64x256x8 : S_.BroadcastsInDim S64x256x8 (![] : Fin 0 → Fin S64x256x8.rank)
  shapeCasts_S64x256x8_S64x2048 : S64x256x8.ShapeCasts S64x2048

variable [Facts₀]

class Facts : Prop extends Facts₀ where

variable [Facts]
-- ==== Proof.Spec.lean ====
/-
  The soft histogram, as mathematics on the extended reals.

  For a sample `x`, a centre `c`, a width `w` and an offset `b` the contribution of the sample to a bin is
  `max (|x + c| * w + b) 0`, the absolute value spelt `max y (-y)`.  A bin's value is the mean of the
  contributions of the 1000 samples of one (batch, feature) row: their sum divided by 1000.  The histogram of a
  batch of 64 such rows of 256 features over 8 bins per feature is the array `hist` below; the parameters come as
  [256, 8] tables (feature, bin).

  Nothing here depends on a program: both the kernel and its reference are shown to compute `hist`.
-/
import Idealize.ShloMosaic.PureOps.Ideal
import Idealize.ShloMosaic.PureOps.Ideal.Laws
import Idealize.ShloMosaic.Lib.ValueIdx

noncomputable section

open scoped BigOperators

namespace Cert.SoftHist

open Idealize.ShloMosaic Idealize.ShloMosaic.ValueIdx

/-- One sample's contribution to one bin: `max (|x + c| * w + b) 0`; the zero is the f32 word `0x00000000`. -/
def bump (x c w b : EReal) : EReal :=
  max (max (x + c) (-(x + c)) * w + b) (Ideal.ofBits .f32 0x00000000#32)

/-- A bin's value: the mean over the 1000 samples of a row, the divisor the f32 word of `1000.0`. -/
def cell (row : Fin 1000 → EReal) (c w b : EReal) : EReal :=
  Ideal.div (∑ n : Fin 1000, bump (row n) c w b) (Ideal.ofBits .f32 0x447A0000#32)

/-- The histogram of a whole batch: entry (p, f, k) is the bin value of row (p, ·, f) under the parameters at (f, k). -/
def hist (X : (⟨3, ![64, 1000, 256]⟩ : Shape).Idx → EReal) (C W B : (⟨2, ![256, 8]⟩ : Shape).Idx → EReal) :
    (⟨3, ![64, 256, 8]⟩ : Shape).Idx → EReal := fun i =>
  cell (fun n => X (ix3 (i 0) n (i 1))) (C (ix2 (i 1) (i 2))) (W (ix2 (i 1) (i 2))) (B (ix2 (i 1) (i 2)))

theorem hist_apply (X : (⟨3, ![64, 1000, 256]⟩ : Shape).Idx → EReal) (C W B : (⟨2, ![256, 8]⟩ : Shape).Idx → EReal)
    (p : Fin 64) (f : Fin 256) (k : Fin 8) :
    hist X C W B (ix3 p f k) = cell (fun n => X (ix3 p n f)) (C (ix2 f k)) (W (ix2 f k)) (B (ix2 f k)) := rfl

/-- A bin's value depends on the row through its entries only. -/
theorem cell_congr {row row' : Fin 1000 → EReal} (h : ∀ n, row n = row' n) (c w b : EReal) :
    cell row c w b = cell row' c w b := by
  rw [show row = row' from funext h]

end Cert.SoftHist

end
-- ==== Proof.Slab.lean ====
/-
  One bin's slab of a block of four batch rows, read at an index.

  The kernel body handles a block of 4 batch rows, [4, 1000, 256], against the three [256, 8] parameter tables.
  For each bin `k` it takes column `k` of each table, a [256] vector of one value per feature, lays it along the
  feature axis of the block ([256] as [1, 1, 256], repeated over the 4 × 1000 samples), forms
  `max (|x + c| * w + b) 0` entry by entry, sums over the sample axis and divides by 1000: a [4, 256] slab.
  Read at (p, f), the slab is the bin value (`cell`) of row (p, ·, f) of the block under the parameters at (f, k):
  the column's entry at sample (p, n, f) is the table's entry (f, k) whatever p and n are, and the sum over the
  middle axis at (p, f) runs over the entries (p, n, f).
-/
import Idealize.ShloMosaic.PureOps
import Idealize.ShloMosaic.PureOps.Ideal.Laws
import Idealize.ShloMosaic.Lib.ValueIdx
import Idealize.ShloMosaic.Lib.Pipeline.Value
import proofs.«176398_j4191888081298_2_alg».proof.Proof.Spec

noncomputable section

open scoped BigOperators

namespace Cert.SoftHist

open Idealize.ShloMosaic Idealize.ShloMosaic.ValueIdx

/-- A block of samples: 4 batch rows. -/
abbrev SBlk : Shape := ⟨3, ![4, 1000, 256]⟩
/-- A parameter table: (feature, bin). -/
abbrev STab : Shape := ⟨2, ![256, 8]⟩
abbrev SCol1 : Shape := ⟨2, ![256, 1]⟩
abbrev SCol : Shape := ⟨1, ![256]⟩
abbrev SRow : Shape := ⟨3, ![1, 1, 256]⟩
/-- One bin's slab of a block: (batch row, feature). -/
abbrev SSlab : Shape := ⟨2, ![4, 256]⟩

/-- Column `k` of a table laid along the feature axis of a block. -/
def col (k : Nat) (T : FVec Ideal STab .f32) (hs : STab.Slices ![0, k] SCol1) (h1 : SCol1.ShapeCasts SCol)
    (h2 : SCol.ShapeCasts SRow) (hb : SRow.Broadcasts SBlk) : FVec Ideal SBlk .f32 :=
  broadcastTo SBlk (shapeCast SRow (shapeCast SCol (extractStridedSlice SCol1 ![0, k] T hs) h1) h2) hb

/-- At sample (p, n, f) the laid-out column `k` holds the table's entry (f, k). -/
theorem col_apply (k : Fin 8) (T : FVec Ideal STab .f32) (hs : STab.Slices ![0, k.val] SCol1) (h1 : SCol1.ShapeCasts SCol)
    (h2 : SCol.ShapeCasts SRow) (hb : SRow.Broadcasts SBlk) (p : Fin 4) (n : Fin 1000) (f : Fin 256) :
    col k.val T hs h1 h2 hb (ix3 p n f) = T (ix2 f k) := by
  unfold col
  refine (broadcastTo_apply _ hb (ix3 p n f) (ix3 (0 : Fin 1) (0 : Fin 1) f) (fun a => match a with
    | ⟨0, _⟩ => by show (0 : Nat) = if (1 : Nat) = 1 then 0 else _; rw [if_pos rfl]
    | ⟨1, _⟩ => by show (0 : Nat) = if (1 : Nat) = 1 then 0 else _; rw [if_pos rfl]
    | ⟨2, _⟩ => by show f.val = if (256 : Nat) = 1 then 0 else f.val; rw [if_neg (by decide)])).trans ?_
  refine (shapeCast_apply _ h2 (ix3 (0 : Fin 1) (0 : Fin 1) f) (ix1 f) (by
    rw [Shape.rowMajor_val_one, Shape.rowMajor_val_three]
    show f.val = ((0 : Nat) * 1 + 0) * 256 + f.val; omega)).trans ?_
  refine (shapeCast_apply _ h1 (ix1 f) (ix2 f (0 : Fin 1)) (by
    rw [Shape.rowMajor_val_one, Shape.rowMajor_val_two]
    show f.val * 1 + (0 : Nat) = f.val; omega)).trans ?_
  exact extractStridedSlice_apply ![0, k.val] T hs (ix2 f (0 : Fin 1)) (ix2 f k) (fun a => match a with
    | ⟨0, _⟩ => by show f.val = 0 + f.val; omega
    | ⟨1, _⟩ => by show k.val = k.val + (0 : Nat); omega)

/-- Bin `k`'s slab of a block, in the operations the body applies. -/
def slab (k : Nat) (X : FVec Ideal SBlk .f32) (C W B : FVec Ideal STab .f32) (hs : STab.Slices ![0, k] SCol1)
    (h1 : SCol1.ShapeCasts SCol) (h2 : SCol.ShapeCasts SRow) (hb : SRow.Broadcasts SBlk) (hr : SBlk.Reduces [1] SSlab) :
    FVec Ideal SSlab .f32 :=
  divf (multiReduction .add [1] SSlab
      (maximumf (addf (mulf (absf (addf X (col k C hs h1 h2 hb))) (col k W hs h1 h2 hb)) (col k B hs h1 h2 hb))
        (broadcast SBlk (Scalar.ofBits .f32 0x00000000#32)))
      0x00000000#32 hr (.inl rfl) rfl)
    (broadcast SSlab (Scalar.ofBits .f32 0x447A0000#32))

/-- The summed array at a sample is that sample's contribution. -/
theorem summand_apply (X cC cW cB : FVec Ideal SBlk .f32) (i : SBlk.Idx) :
    maximumf (addf (mulf (absf (addf X cC)) cW) cB) (broadcast SBlk (Scalar.ofBits .f32 0x00000000#32)) i
      = bump (X i) (cC i) (cW i) (cB i) := rfl

/-- The sum over the sample axis of a block, read at (p, f): the sum over n of the entries (p, n, f). -/
theorem sum_samples (hr : SBlk.Reduces [1] SSlab) (src : FVec Ideal SBlk .f32) (p : Fin 4) (f : Fin 256) :
    multiReduction .add [1] SSlab src 0x00000000#32 hr (.inl rfl) rfl (ix2 p f) = ∑ n : Fin 1000, src (ix3 p n f) := by
  refine (Ideal.multiReduction_add_single src 0x00000000#32 hr (.inl rfl) rfl (ix2 p f)).trans ?_
  exact Finset.sum_congr rfl fun n _ => congrArg src
    (funext fun a => Fin.ext (by match a with | ⟨0, _⟩ => rfl | ⟨1, _⟩ => rfl | ⟨2, _⟩ => rfl))

/-- The slab at (p, f) is the bin value of row (p, ·, f) of the block under the parameters at (f, k). -/
theorem slab_apply (k : Fin 8) (X : FVec Ideal SBlk .f32) (C W B : FVec Ideal STab .f32) (hs : STab.Slices ![0, k.val] SCol1)
    (h1 : SCol1.ShapeCasts SCol) (h2 : SCol.ShapeCasts SRow) (hb : SRow.Broadcasts SBlk) (hr : SBlk.Reduces [1] SSlab)
    (p : Fin 4) (f : Fin 256) :
    slab k.val X C W B hs h1 h2 hb hr (ix2 p f)
      = cell (fun n => X (ix3 p n f)) (C (ix2 f k)) (W (ix2 f k)) (B (ix2 f k)) := by
  unfold slab cell
  refine congrArg (fun s => Ideal.div s (Ideal.ofBits .f32 0x447A0000#32)) ?_
  refine (sum_samples hr _ p f).trans ?_
  refine Finset.sum_congr rfl fun n _ => ?_
  rw [summand_apply, col_apply, col_apply, col_apply]

end Cert.SoftHist

end
-- ==== Proof.Block.lean ====
/-
  What the kernel body leaves in its output block, read at an index.

  From a block of 4 batch rows and the three parameter tables the body forms the eight slabs (one per bin, each
  [4, 256]), views each as [4, 256, 1] and stacks them along a new last axis: a [4, 256, 8] block.  Entry (p, f, k) of
  a stack of unit pieces along the last axis is entry (p, f, 0) of piece k, which is the slab's entry (p, f).  So the
  block's entry (p, f, k) is the bin value of row (p, ·, f) of the sample block under the parameters at (f, k).
-/
import proofs.«176398_j4191888081298_2_alg».proof.Proof.Gen.KernelIdeal.Frame
import proofs.«176398_j4191888081298_2_alg».proof.Proof.Slab

noncomputable section

namespace Cert.SoftHist.Ker

open Cert.KernelIdeal Cert.KernelIdeal.Gen Cert.SoftHist
open Idealize.ShloMosaic Idealize.ShloMosaic.ValueIdx

/-! ## The eight payload pieces are the eight slabs -/

section Slabs
variable (x0 : FVec Ideal S4x1000x256 .f32) (v1 v3 v5 v2 v4 v6 : FVec Ideal S256x8 .f32)

/-- Bin `k`'s slab in the body's own side conditions. -/
abbrev slabOf (k : Nat) (hs : S256x8.Slices ![0, k] S256x1) : FVec Ideal S4x256 .f32 :=
  slab k x0 v2 v4 v6 hs shapeCasts_S256x1_S256 shapeCasts_S256_S1x1x256 broadcasts_S1x1x256_S4x1000x256
    reduces_S4x1000x256_S4x256

theorem bin0 : k0_pay5 (F := Ideal) x0 v1 v3 v5
    = slab 0 x0 (k0_pay2 v1) (k0_pay3 v3) (k0_pay4 v5) slices_S256x8_o0_0_S256x1 shapeCasts_S256x1_S256
        shapeCasts_S256_S1x1x256 broadcasts_S1x1x256_S4x1000x256 reduces_S4x1000x256_S4x256 := rfl
theorem bin1 : k0_pay7 (F := Ideal) (k0_pay6 x0 v1 v3 v5)
    = slab 1 x0 (k0_pay2 v1) (k0_pay3 v3) (k0_pay4 v5) slices_S256x8_o0_1_S256x1 shapeCasts_S256x1_S256
        shapeCasts_S256_S1x1x256 broadcasts_S1x1x256_S4x1000x256 reduces_S4x1000x256_S4x256 := rfl
theorem bin2 : k0_pay8 (F := Ideal) x0 v2 v4 v6 = slabOf x0 v2 v4 v6 2 slices_S256x8_o0_2_S256x1 := rfl
theorem bin3 : k0_pay9 (F := Ideal) x0 v2 v4 v6 = slabOf x0 v2 v4 v6 3 slices_S256x8_o0_3_S256x1 := rfl
theorem bin4 : k0_pay13 (F := Ideal) x0 (k0_pay10 v4) (k0_pay11 v6) (k0_pay12 v2)
    = slabOf x0 v2 v4 v6 4 slices_S256x8_o0_4_S256x1 := rfl
theorem bin5 : k0_pay14 (F := Ideal) x0 v2 v4 v6 = slabOf x0 v2 v4 v6 5 slices_S256x8_o0_5_S256x1 := rfl

/-- The stored value: the six slabs handed in and the two formed last, each viewed [4, 256, 1], stacked. -/
theorem stacked (s0 s1 s2 s3 s4 s5 : FVec Ideal S4x256 .f32) :
    k0_pay1 (F := Ideal) x0 v2 v4 v6 s0 s1 s2 s3 s4 s5 (k0_pay15 x0 v2 v4 v6)
      = concatenate S4x256x8 2
          [⟨S4x256x1, shapeCast S4x256x1 s0 shapeCasts_S4x256_S4x256x1⟩,
           ⟨S4x256x1, shapeCast S4x256x1 s1 shapeCasts_S4x256_S4x256x1⟩,
           ⟨S4x256x1, shapeCast S4x256x1 s2 shapeCasts_S4x256_S4x256x1⟩,
           ⟨S4x256x1, shapeCast S4x256x1 s3 shapeCasts_S4x256_S4x256x1⟩,
           ⟨S4x256x1, shapeCast S4x256x1 s4 shapeCasts_S4x256_S4x256x1⟩,
           ⟨S4x256x1, shapeCast S4x256x1 s5 shapeCasts_S4x256_S4x256x1⟩,
           ⟨S4x256x1, shapeCast S4x256x1 (slabOf x0 v2 v4 v6 6 slices_S256x8_o0_6_S256x1) shapeCasts_S4x256_S4x256x1⟩,
           ⟨S4x256x1, shapeCast S4x256x1 (slabOf x0 v2 v4 v6 7 slices_S256x8_o0_7_S256x1) shapeCasts_S4x256_S4x256x1⟩]
          concatenates_S4x256x1_S4x256x1_S4x256x1_S4x256x1_S4x256x1_S4x256x1_S4x256x1_S4x256x1_S4x256x8_d2 := rfl

end Slabs

/-! ## A stack of eight unit pieces along the last axis, read at an index -/

/-- Piece `k` of a stack along the last axis of [4, 256, 8], at (p, f, k): the piece at (p, f, 0). -/
theorem piece_apply {α : Type} (xs : List ((s : Shape) × (s.Idx → α)))
    (h : Shape.Concatenates (xs.map (·.1)) S4x256x8 2) (k : Nat) (hk : k < xs.length) (hk8 : k < 8)
    (x₁ : S4x256x1.Idx → α) (hxk : xs[k] = ⟨S4x256x1, x₁⟩)
    (hpre : (((xs.take k).map (·.1)).map fun s =>
      if h : s.rank = S4x256x8.rank then s.size ((2 : Fin S4x256x8.rank).cast h.symm) else 0).sum = k)
    (p : Fin 4) (f : Fin 256) :
    concatenate S4x256x8 2 xs h (ix3 p f (⟨k, hk8⟩ : Fin 8)) = x₁ (ix3 p f (0 : Fin 1)) :=
  concatenate_apply_piece (2 : Fin S4x256x8.rank) xs h (ix3 p f (⟨k, hk8⟩ : Fin 8)) k hk S4x256x1 x₁ hxk rfl k hpre
    (ix3 p f (0 : Fin 1))
    (fun b hb => match b, hb with
      | ⟨0, _⟩, _ => rfl
      | ⟨1, _⟩, _ => rfl
      | ⟨2, _⟩, hb => absurd rfl hb)
    rfl

/-- A [4, 256] slab viewed [4, 256, 1], at (p, f, 0): the slab at (p, f). -/
theorem unit_apply {α : Type} (s : S4x256.Idx → α) (h : S4x256.ShapeCasts S4x256x1) (p : Fin 4) (f : Fin 256) :
    shapeCast S4x256x1 s h (ix3 p f (0 : Fin 1)) = s (ix2 p f) :=
  shapeCast_apply s h (ix3 p f (0 : Fin 1)) (ix2 p f) (by
    rw [Shape.rowMajor_val_two, Shape.rowMajor_val_three]
    show p.val * 256 + f.val = (p.val * 256 + f.val) * 1 + (0 : Nat); omega)

/-- The stack of eight slabs at (p, f, k) is slab `k` at (p, f). -/
theorem stack_apply {α : Type} (s : Fin 8 → (S4x256.Idx → α)) (hc : S4x256.ShapeCasts S4x256x1)
    (h : Shape.Concatenates [S4x256x1, S4x256x1, S4x256x1, S4x256x1, S4x256x1, S4x256x1, S4x256x1, S4x256x1] S4x256x8 2)
    (p : Fin 4) (f : Fin 256) (k : Fin 8) :
    concatenate S4x256x8 2
        [⟨S4x256x1, shapeCast S4x256x1 (s 0) hc⟩, ⟨S4x256x1, shapeCast S4x256x1 (s 1) hc⟩,
         ⟨S4x256x1, shapeCast S4x256x1 (s 2) hc⟩, ⟨S4x256x1, shapeCast S4x256x1 (s 3) hc⟩,
         ⟨S4x256x1, shapeCast S4x256x1 (s 4) hc⟩, ⟨S4x256x1, shapeCast S4x256x1 (s 5) hc⟩,
         ⟨S4x256x1, shapeCast S4x256x1 (s 6) hc⟩, ⟨S4x256x1, shapeCast S4x256x1 (s 7) hc⟩] h (ix3 p f k)
      = s k (ix2 p f) := by
  let xs : List ((s : Shape) × (s.Idx → α)) :=
    [⟨S4x256x1, shapeCast S4x256x1 (s 0) hc⟩, ⟨S4x256x1, shapeCast S4x256x1 (s 1) hc⟩,
     ⟨S4x256x1, shapeCast S4x256x1 (s 2) hc⟩, ⟨S4x256x1, shapeCast S4x256x1 (s 3) hc⟩,
     ⟨S4x256x1, shapeCast S4x256x1 (s 4) hc⟩, ⟨S4x256x1, shapeCast S4x256x1 (s 5) hc⟩,
     ⟨S4x256x1, shapeCast S4x256x1 (s 6) hc⟩, ⟨S4x256x1, shapeCast S4x256x1 (s 7) hc⟩]
  show concatenate S4x256x8 2 xs h (ix3 p f k) = s k (ix2 p f)
  match k with
  | ⟨0, _⟩ => exact (piece_apply xs h 0 (show (0 : Nat) < 8 by decide) (by decide) _ rfl rfl p f).trans (unit_apply (s 0) hc p f)
  | ⟨1, _⟩ => exact (piece_apply xs h 1 (show (1 : Nat) < 8 by decide) (by decide) _ rfl rfl p f).trans (unit_apply (s 1) hc p f)
  | ⟨2, _⟩ => exact (piece_apply xs h 2 (show (2 : Nat) < 8 by decide) (by decide) _ rfl rfl p f).trans (unit_apply (s 2) hc p f)
  | ⟨3, _⟩ => exact (piece_apply xs h 3 (show (3 : Nat) < 8 by decide) (by decide) _ rfl rfl p f).trans (unit_apply (s 3) hc p f)
  | ⟨4, _⟩ => exact (piece_apply xs h 4 (show (4 : Nat) < 8 by decide) (by decide) _ rfl rfl p f).trans (unit_apply (s 4) hc p f)
  | ⟨5, _⟩ => exact (piece_apply xs h 5 (show (5 : Nat) < 8 by decide) (by decide) _ rfl rfl p f).trans (unit_apply (s 5) hc p f)
  | ⟨6, _⟩ => exact (piece_apply xs h 6 (show (6 : Nat) < 8 by decide) (by decide) _ rfl rfl p f).trans (unit_apply (s 6) hc p f)
  | ⟨7, _⟩ => exact (piece_apply xs h 7 (show (7 : Nat) < 8 by decide) (by decide) _ rfl rfl p f).trans (unit_apply (s 7) hc p f)

/-! ## The block -/

theorem zero3 : (![0, 0, 0] : Fin 3 → Nat) = fun _ => 0 := funext fun a => by fin_cases a <;> rfl
theorem zero2 : (![0, 0] : Fin 2 → Nat) = fun _ => 0 := funext fun a => by fin_cases a <;> rfl

/-- The tables reach the slabs through a cast to their own shape: the identity. -/
theorem tab_eq (v : FVec Ideal S256x8 .f32) : k0_pay2 (F := Ideal) v = v ∧ k0_pay3 (F := Ideal) v = v ∧ k0_pay4 (F := Ideal) v = v :=
  ⟨shapeCast_self v _, shapeCast_self v _, shapeCast_self v _⟩

/-- The eight slabs of a block, by bin. -/
def slabs (x0 : FVec Ideal S4x1000x256 .f32) (x1 x2 x3 : FVec Ideal S256x8 .f32) : Fin 8 → FVec Ideal S4x256 .f32
  | ⟨0, _⟩ => slabOf x0 x1 x2 x3 0 slices_S256x8_o0_0_S256x1
  | ⟨1, _⟩ => slabOf x0 x1 x2 x3 1 slices_S256x8_o0_1_S256x1
  | ⟨2, _⟩ => slabOf x0 x1 x2 x3 2 slices_S256x8_o0_2_S256x1
  | ⟨3, _⟩ => slabOf x0 x1 x2 x3 3 slices_S256x8_o0_3_S256x1
  | ⟨4, _⟩ => slabOf x0 x1 x2 x3 4 slices_S256x8_o0_4_S256x1
  | ⟨5, _⟩ => slabOf x0 x1 x2 x3 5 slices_S256x8_o0_5_S256x1
  | ⟨6, _⟩ => slabOf x0 x1 x2 x3 6 slices_S256x8_o0_6_S256x1
  | ⟨7, _⟩ => slabOf x0 x1 x2 x3 7 slices_S256x8_o0_7_S256x1

/-- Slab `k` at (p, f) is the bin value of row (p, ·, f) under the parameters at (f, k). -/
theorem slabs_apply (x0 : FVec Ideal S4x1000x256 .f32) (x1 x2 x3 : FVec Ideal S256x8 .f32) (p : Fin 4) (f : Fin 256)
    (k : Fin 8) :
    slabs x0 x1 x2 x3 k (ix2 p f) = cell (fun n => x0 (ix3 p n f)) (x1 (ix2 f k)) (x2 (ix2 f k)) (x3 (ix2 f k)) := by
  match k with
  | ⟨0, _⟩ => exact slab_apply (0 : Fin 8) x0 x1 x2 x3 _ _ _ _ _ p f
  | ⟨1, _⟩ => exact slab_apply (1 : Fin 8) x0 x1 x2 x3 _ _ _ _ _ p f
  | ⟨2, _⟩ => exact slab_apply (2 : Fin 8) x0 x1 x2 x3 _ _ _ _ _ p f
  | ⟨3, _⟩ => exact slab_apply (3 : Fin 8) x0 x1 x2 x3 _ _ _ _ _ p f
  | ⟨4, _⟩ => exact slab_apply (4 : Fin 8) x0 x1 x2 x3 _ _ _ _ _ p f
  | ⟨5, _⟩ => exact slab_apply (5 : Fin 8) x0 x1 x2 x3 _ _ _ _ _ p f
  | ⟨6, _⟩ => exact slab_apply (6 : Fin 8) x0 x1 x2 x3 _ _ _ _ _ p f
  | ⟨7, _⟩ => exact slab_apply (7 : Fin 8) x0 x1 x2 x3 _ _ _ _ _ p f

/-- What the body leaves in its output block, as the stack of the eight slabs. -/
theorem block_eq (x0 : FVec Ideal S4x1000x256 .f32) (x1 x2 x3 : FVec Ideal S256x8 .f32) :
    out0_4 (F := Ideal) x0 x1 x2 x3
      = concatenate S4x256x8 2
          [⟨S4x256x1, shapeCast S4x256x1 (slabs x0 x1 x2 x3 0) shapeCasts_S4x256_S4x256x1⟩,
           ⟨S4x256x1, shapeCast S4x256x1 (slabs x0 x1 x2 x3 1) shapeCasts_S4x256_S4x256x1⟩,
           ⟨S4x256x1, shapeCast S4x256x1 (slabs x0 x1 x2 x3 2) shapeCasts_S4x256_S4x256x1⟩,
           ⟨S4x256x1, shapeCast S4x256x1 (slabs x0 x1 x2 x3 3) shapeCasts_S4x256_S4x256x1⟩,
           ⟨S4x256x1, shapeCast S4x256x1 (slabs x0 x1 x2 x3 4) shapeCasts_S4x256_S4x256x1⟩,
           ⟨S4x256x1, shapeCast S4x256x1 (slabs x0 x1 x2 x3 5) shapeCasts_S4x256_S4x256x1⟩,
           ⟨S4x256x1, shapeCast S4x256x1 (slabs x0 x1 x2 x3 6) shapeCasts_S4x256_S4x256x1⟩,
           ⟨S4x256x1, shapeCast S4x256x1 (slabs x0 x1 x2 x3 7) shapeCasts_S4x256_S4x256x1⟩]
          concatenates_S4x256x1_S4x256x1_S4x256x1_S4x256x1_S4x256x1_S4x256x1_S4x256x1_S4x256x1_S4x256x8_d2 := by
  unfold out0_4
  rw [View.canon_unit_zero zero3]
  simp only [View.ld_unit_zero (S := S4x1000x256) zero3, View.ld_unit_zero (S := S256x8) zero2]
  rw [stacked, bin0, bin1, bin2, bin3, bin4, bin5, (tab_eq x1).1, (tab_eq x2).2.1, (tab_eq x3).2.2]
  rfl

/-- Entry (p, f, k) of the block the body leaves. -/
theorem block_apply (x0 : FVec Ideal S4x1000x256 .f32) (x1 x2 x3 : FVec Ideal S256x8 .f32) (p : Fin 4) (f : Fin 256)
    (k : Fin 8) :
    out0_4 (F := Ideal) x0 x1 x2 x3 (ix3 p f k)
      = cell (fun n => x0 (ix3 p n f)) (x1 (ix2 f k)) (x2 (ix2 f k)) (x3 (ix2 f k)) := by
  rw [block_eq, stack_apply (slabs x0 x1 x2 x3), slabs_apply]

end Cert.SoftHist.Ker

end
-- ==== Proof.Array.lean ====
/-
  From the blocks to the whole result.

  The grid has 16 points; point t stages batch rows 4t .. 4t+3 of the samples and the whole of each parameter table,
  and writes back batch rows 4t .. 4t+3 of the [64, 256, 8] output.  The three tables the kernel is launched on are
  the [2048] arguments reshaped to [256, 8] by the host.  Entry (y0, f, k) of the block point t writes is the bin
  value of row (y0, ·, f) of its sample block, which is row (4t + y0, ·, f) of the samples: the block is block t of
  the histogram of the samples and the reshaped tables.  The 16 blocks tile the output (row r lies in block r / 4),
  so the output array ends as the histogram; the host's last reshape views it as [64, 2048].
-/
import proofs.«176398_j4191888081298_2_alg».proof.Proof.Block
import Idealize.ShloMosaic.Lib.Pipeline.Value
import Idealize.ShloMosaic.Lib.StableHlo.Run

set_option maxRecDepth 16384

noncomputable section

namespace Cert.SoftHist.Ker

open Cert.KernelIdeal Cert.KernelIdeal.Gen Cert.SoftHist
open Idealize.ShloMosaic Idealize.ShloMosaic.TcCoe Idealize.ShloMosaic.ValueIdx Idealize.SL.Sem
open Idealize.ShloMosaic.Pipeline (Dat)

/-! ## A block of the histogram -/

/-- If a sample block is rows 4q .. 4q+3 of the samples and the three staged tables are the tables, the body's output
    block at `y` is the histogram at the index 4q rows further down. -/
theorem block_hist (X : FVec Ideal S64x1000x256 .f32) (C W B : FVec Ideal S256x8 .f32)
    (x0 : FVec Ideal S4x1000x256 .f32) (x1 x2 x3 : FVec Ideal S256x8 .f32) (q : Nat)
    (h0 : ∀ (p : Fin 4) (n : Fin 1000) (f : Fin 256) (hp : q * 4 + p.val < 64),
      x0 (ix3 p n f) = X (ix3 (⟨q * 4 + p.val, hp⟩ : Fin 64) n f))
    (h1 : ∀ j, x1 j = C j) (h2 : ∀ j, x2 j = W j) (h3 : ∀ j, x3 j = B j)
    (y : S4x256x8.Idx) (i : S64x256x8.Idx)
    (hi0 : (i 0).val = q * 4 + (y 0).val) (hi1 : (i 1).val = (y 1).val) (hi2 : (i 2).val = (y 2).val) :
    out0_4 (F := Ideal) x0 x1 x2 x3 y = hist X C W B i := by
  obtain ⟨p, f, k, rfl⟩ : ∃ (p : Fin 4) (f : Fin 256) (k : Fin 8), y = ix3 p f k := ⟨y 0, y 1, y 2, eq_ix3 y⟩
  have hlt : (i 0).val < 64 := (i 0).isLt
  have hp : q * 4 + p.val < 64 := by
    have e : (i 0).val = q * 4 + p.val := hi0
    omega
  have ei : i = ix3 (⟨q * 4 + p.val, hp⟩ : Fin 64) f k :=
    funext fun a => Fin.ext (by match a with | ⟨0, _⟩ => exact hi0 | ⟨1, _⟩ => exact hi1 | ⟨2, _⟩ => exact hi2)
  rw [ei, hist_apply, block_apply, h1, h2, h3]
  exact cell_congr (fun n => h0 p n f hp) _ _ _

variable (m : (ℓ : Loc nD τ sig) → Buf (Elt Ideal) ℓ) (ρ : Dev nD → PrngReg)

/-! ## The point's blocks -/

/-- The printed index maps, decided over the 16 points: the sample window and the output window sit at block row t,
    everything else at block 0. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) = t.val ∧ win0_4.index t (1 : Fin 3) = 0 ∧ win0_4.index t (2 : Fin 3) = 0 :=
  (by decide +kernel : ∀ t : Fin grid0.N, _)

/-- WHAT POINT `t` WRITES BACK is block `t` of the histogram of the arrays as the region finds them. -/
theorem flushed_eq (c : Dev nD) (t : Fin cfg0.N) :
    (dats m 0 c).flushed 4 t = ((cfg0.win 4).blk t).view.read (Elt Ideal)
      (hist (V m c main_arg0) (V m c main_v0) (V m c main_v1) (V m c main_v2)) := by
  show (cfg0.win 4).cut (grid0.coords t) ((dats m 0 c).after 4 t) = _
  rw [after0_4]
  obtain ⟨a0, a1, a2, b0, b1, c0, c1, d0, d1, e0, e1, e2⟩ := idx_facts t
  funext y
  show out0_4 (F := Ideal) (iblk m c 0 t) (iblk m c 1 t) (iblk m c 2 t) (iblk m c 3 t) y
    = hist (V m c main_arg0) (V m c main_v0) (V m c main_v1) (V m c main_v2) (((cfg0.win 4).blk t).view.emb y)
  refine block_hist (V m c main_arg0) (V m c main_v0) (V m c main_v1) (V m c main_v2)
    (iblk m c 0 t) (iblk m c 1 t) (iblk m c 2 t) (iblk m c 3 t) t.val ?_ ?_ ?_ ?_ y _ ?_ ?_ ?_
  · intro p n f hp
    show V m c main_arg0 (((cfg0.win 0).blk t).view.emb (ix3 p n f)) = V m c main_arg0 _
    refine congrArg (V m c main_arg0) (funext fun a => Fin.ext ?_)
    match a with
    | ⟨0, _⟩ => show win0_0.index t (0 : Fin 3) * 4 + 1 * p.val = t.val * 4 + p.val; omega
    | ⟨1, _⟩ => show win0_0.index t (1 : Fin 3) * 1000 + 1 * n.val = n.val; omega
    | ⟨2, _⟩ => show win0_0.index t (2 : Fin 3) * 256 + 1 * f.val = f.val; omega
  · intro j
    show V m c main_v0 (((cfg0.win 1).blk t).view.emb j) = V m c main_v0 j
    refine congrArg (V m c main_v0) (funext fun a => Fin.ext ?_)
    match a with
    | ⟨0, _⟩ => show win0_1.index t (0 : Fin 2) * 256 + 1 * (j 0).val = (j 0).val; omega
    | ⟨1, _⟩ => show win0_1.index t (1 : Fin 2) * 8 + 1 * (j 1).val = (j 1).val; omega
  · intro j
    show V m c main_v1 (((cfg0.win 2).blk t).view.emb j) = V m c main_v1 j
    refine congrArg (V m c main_v1) (funext fun a => Fin.ext ?_)
    match a with
    | ⟨0, _⟩ => show win0_2.index t (0 : Fin 2) * 256 + 1 * (j 0).val = (j 0).val; omega
    | ⟨1, _⟩ => show win0_2.index t (1 : Fin 2) * 8 + 1 * (j 1).val = (j 1).val; omega
  · intro j
    show V m c main_v2 (((cfg0.win 3).blk t).view.emb j) = V m c main_v2 j
    refine congrArg (V m c main_v2) (funext fun a => Fin.ext ?_)
    match a with
    | ⟨0, _⟩ => show win0_3.index t (0 : Fin 2) * 256 + 1 * (j 0).val = (j 0).val; omega
    | ⟨1, _⟩ => show win0_3.index t (1 : Fin 2) * 8 + 1 * (j 1).val = (j 1).val; omega
  · show win0_4.index t (0 : Fin 3) * 4 + 1 * (y 0).val = t.val * 4 + (y 0).val; omega
  · show win0_4.index t (1 : Fin 3) * 256 + 1 * (y 1).val = (y 1).val; omega
  · show win0_4.index t (2 : Fin 3) * 8 + 1 * (y 2).val = (y 2).val; omega

/-! ## The blocks tile the output -/

/-- An index of the output is in point `t`'s block iff each coordinate is in the block's range on its axis. -/
theorem mem_blk (t : Fin cfg0.N) (i : S64x256x8.Idx) :
    i ∈ ((cfg0.win 4).blk t).view.set ↔ ∀ a : Fin 3, win0_4.index t a * S4x256x8.size a ≤ (i a).val
      ∧ (i a).val < win0_4.index t a * S4x256x8.size a + S4x256x8.size a := by
  show i ∈ ((View.whole main_v3).slice (win0_4.rect t)).set ↔ _
  rw [View.set_slice_whole, Rect.mem_set_unit]
  exact Iff.rfl

/-- Every index of the output is in the block of the point its batch row names. -/
theorem cover (i : S64x256x8.Idx) :
    ∃ t : Fin cfg0.N, (cfg0.win 4).flush t = true ∧ i ∈ ((cfg0.win 4).blk t).view.set := by
  have h0 : (i 0).val < 64 := (i 0).isLt
  have h1 : (i 1).val < 256 := (i 1).isLt
  have h2 : (i 2).val < 8 := (i 2).isLt
  have hN : grid0.N = 16 := N_0
  let t : Fin cfg0.N := ⟨(i 0).val / 4, by show (i 0).val / 4 < grid0.N; rw [hN]; omega⟩
  obtain ⟨-, -, -, -, -, -, -, -, -, e0, e1, e2⟩ := idx_facts t
  have et : t.val = (i 0).val / 4 := rfl
  refine ⟨t, flush0_4 t, ?_⟩
  rw [mem_blk]
  intro a
  match a with
  | ⟨0, _⟩ => show win0_4.index t (0 : Fin 3) * 4 ≤ (i 0).val ∧ (i 0).val < win0_4.index t (0 : Fin 3) * 4 + 4; omega
  | ⟨1, _⟩ => show win0_4.index t (1 : Fin 3) * 256 ≤ (i 1).val ∧ (i 1).val < win0_4.index t (1 : Fin 3) * 256 + 256; omega
  | ⟨2, _⟩ => show win0_4.index t (2 : Fin 3) * 8 ≤ (i 2).val ∧ (i 2).val < win0_4.index t (2 : Fin 3) * 8 + 8; omega

/-! ## The arrays the region finds -/

/-- The first table as the region finds it: the host's reshape of the second argument. -/
theorem tab1 (c : Dev nD) : (V m c main_v0 : S256x8.Idx → Elt Ideal .f32)
    = shapeCast S256x8 (m ((c : Thread nD τ).loc main_arg1)) shapeCasts_S2048_S256x8 := by
  show StableHlo.after hostOps0 (fun b => m (c, b)) (Proc.devRef .tc main_v0) = _
  after_results
  rfl
theorem tab2 (c : Dev nD) : (V m c main_v1 : S256x8.Idx → Elt Ideal .f32)
    = shapeCast S256x8 (m ((c : Thread nD τ).loc main_arg2)) shapeCasts_S2048_S256x8 := by
  show StableHlo.after hostOps0 (fun b => m (c, b)) (Proc.devRef .tc main_v1) = _
  after_results
  rfl
theorem tab3 (c : Dev nD) : (V m c main_v2 : S256x8.Idx → Elt Ideal .f32)
    = shapeCast S256x8 (m ((c : Thread nD τ).loc main_arg3)) shapeCasts_S2048_S256x8 := by
  show StableHlo.after hostOps0 (fun b => m (c, b)) (Proc.devRef .tc main_v2) = _
  after_results
  rfl

/-- The kernel's result as one function of the four arguments: the histogram of the samples and the reshaped
    parameter vectors, viewed [64, 2048]. -/
def result (c : Dev nD) : S64x2048.Idx → Elt Ideal .f32 :=
  shapeCast S64x2048
    (hist (m ((c : Thread nD τ).loc main_arg0))
      (shapeCast S256x8 (m ((c : Thread nD τ).loc main_arg1)) shapeCasts_S2048_S256x8)
      (shapeCast S256x8 (m ((c : Thread nD τ).loc main_arg2)) shapeCasts_S2048_S256x8)
      (shapeCast S256x8 (m ((c : Thread nD τ).loc main_arg3)) shapeCasts_S2048_S256x8))
    shapeCasts_S64x256x8_S64x2048

/-- THE OUTPUT ARRAY after the region: the histogram. -/
theorem final (c : Dev nD) : (dats m 0 c).arrAt 4 cfg0.N
    = hist (m ((c : Thread nD τ).loc main_arg0))
      (shapeCast S256x8 (m ((c : Thread nD τ).loc main_arg1)) shapeCasts_S2048_S256x8)
      (shapeCast S256x8 (m ((c : Thread nD τ).loc main_arg2)) shapeCasts_S2048_S256x8)
      (shapeCast S256x8 (m ((c : Thread nD τ).loc main_arg3)) shapeCasts_S2048_S256x8) := by
  rw [← V_main_arg0 m c, ← tab1 m c, ← tab2 m c, ← tab3 m c]
  exact (dats m 0 c).arrAt_eq_of_cover 4 _ (fun t _ => flushed_eq m c t) cover

/-- The host's last line reshapes the output array. -/
theorem tail_eq (c : Dev nD) :
    Pipeline.afterTail₀ cfgs (dats m) 0 (V0 m) [hostOps1] c main_v4 = result m c := by
  unfold Pipeline.afterTail₀ result
  show StableHlo.after hostOps1 _ (Proc.devRef .tc main_v4) = _
  after_results
  have e : Pipeline.withArrays (cfgs 0).spec c (V0 m c) (fun w => (dats m 0 c).arrAt w (cfgs 0).N)
      (Proc.devRef .tc main_v3)
      = hist (m ((c : Thread nD τ).loc main_arg0))
        (shapeCast S256x8 (m ((c : Thread nD τ).loc main_arg1)) shapeCasts_S2048_S256x8)
        (shapeCast S256x8 (m ((c : Thread nD τ).loc main_arg2)) shapeCasts_S2048_S256x8)
        (shapeCast S256x8 (m ((c : Thread nD τ).loc main_arg3)) shapeCasts_S2048_S256x8) :=
    (Pipeline.withArrays_arr spec0 launch0.win.arr_inj c _ _ 4).trans (final m c)
  rw [e]
  rfl

/-! ## The run -/

/-- The kernel's run: the result buffer ends at `result`, the arguments as launched. -/
theorem run : θ_run defs (onTc (τ := τ) (main (F := Ideal))) ⟨m, fun _ => 0, ρ⟩ fun r => ∀ c : Dev nD,
      r.2.mem ((c.tc : Thread nD τ).loc main_v4) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v4 (Pipeline.mem_restRefs_of main_v4 (by decide) (by decide))).trans (tail_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.SoftHist.Ker

end
-- ==== Proof.RefSide.lean ====
/-
  The reference computes the histogram.

  The reference broadcasts the samples [64, 1000, 256] along a new bin axis and the three [256, 8] parameter tables
  along the batch and sample axes, to [64, 1000, 256, 8]; forms `max (|x + c| * w + b) 0` entry by entry; sums over
  the sample axis from the initial value 0; divides by 1000.  Read at (p, f, k): the broadcast samples at
  (p, n, f, k) are the sample (p, n, f), the broadcast tables there are the tables' entries (f, k), so the sum is
  over the contributions of row (p, ·, f), and 0 + s = s.  That is `hist` of the samples and the three tables.
-/
import proofs.«176398_j4191888081298_2_alg».proof.Proof.Gen.ReferenceIdeal.Read
import proofs.«176398_j4191888081298_2_alg».proof.Proof.Spec

noncomputable section

open scoped BigOperators

namespace Cert.SoftHist.Ref

open Cert.ReferenceIdeal Cert.ReferenceIdeal.Gen Cert.ReferenceIdeal.Read Cert.SoftHist
open Idealize.ShloMosaic Idealize.ShloMosaic.ValueIdx

/-- The reference's value before its last reshape is the histogram of the samples and the reshaped tables. -/
theorem quotient_eq (x0 : (⟨S64x1000x256, .f32⟩ : BufTy).Contents (Elt Ideal))
    (x1 x2 x3 : (⟨S2048, .f32⟩ : BufTy).Contents (Elt Ideal)) :
    val_main_v18 (F := Ideal) x0 x1 x2 x3
      = hist x0 (val_main_v0 (F := Ideal) x1) (val_main_v1 (F := Ideal) x2) (val_main_v2 (F := Ideal) x3) := by
  funext i
  obtain ⟨p, f, k, rfl⟩ : ∃ (p : Fin 64) (f : Fin 256) (k : Fin 8), i = ix3 p f k := ⟨i 0, i 1, i 2, eq_ix3 i⟩
  rw [hist_apply, val_main_v18_apply, val_main_v16_apply]
  unfold cell
  show Ideal.div (Ideal.ofBits .f32 0x00000000#32 + _) (Ideal.ofBits .f32 0x447A0000#32) = _
  rw [Ideal.ofBits_zero_f32, zero_add]
  refine congrArg (fun s => Ideal.div s (Ideal.ofBits .f32 0x447A0000#32)) (Finset.sum_congr rfl fun n _ => ?_)
  have e0 : idx_main_v3 (idx_main_v5 (idx_main_v16 (ix3 p f k) n)) = ix3 p n f :=
    funext fun a => Fin.ext (by match a with | ⟨0, _⟩ => rfl | ⟨1, _⟩ => rfl | ⟨2, _⟩ => rfl)
  have e1 : idx_main_v4 (idx_main_v6 (idx_main_v16 (ix3 p f k) n)) = ix2 f k :=
    funext fun a => Fin.ext (by match a with | ⟨0, _⟩ => rfl | ⟨1, _⟩ => rfl)
  have e2 : idx_main_v9 (idx_main_v10 (idx_main_v16 (ix3 p f k) n)) = ix2 f k :=
    funext fun a => Fin.ext (by match a with | ⟨0, _⟩ => rfl | ⟨1, _⟩ => rfl)
  have e3 : idx_main_v12 (idx_main_v13 (idx_main_v16 (ix3 p f k) n)) = ix2 f k :=
    funext fun a => Fin.ext (by match a with | ⟨0, _⟩ => rfl | ⟨1, _⟩ => rfl)
  rw [val_main_v15_apply, val_main_v14_apply, val_main_v11_apply, val_main_v8_apply, val_main_v7_apply,
    val_main_v5_apply, val_main_v3_apply, val_main_v6_apply, val_main_v4_apply, val_main_v10_apply, val_main_v9_apply,
    val_main_v13_apply, val_main_v12_apply, val_main_call0_v0_apply, e0, e1, e2, e3]
  rfl

/-- The reference's result: the histogram, reshaped [64, 256, 8] to [64, 2048]. -/
theorem result_eq (x0 : (⟨S64x1000x256, .f32⟩ : BufTy).Contents (Elt Ideal))
    (x1 x2 x3 : (⟨S2048, .f32⟩ : BufTy).Contents (Elt Ideal)) :
    val_main_v19 (F := Ideal) x0 x1 x2 x3
      = shapeCast S64x2048 (hist x0 (val_main_v0 (F := Ideal) x1) (val_main_v1 (F := Ideal) x2) (val_main_v2 (F := Ideal) x3))
          shapeCasts_S64x256x8_S64x2048 := by
  unfold val_main_v19
  rw [quotient_eq]

end Cert.SoftHist.Ref

end
-- ==== Proof.lean ====
/-
  A soft histogram: for each of 64 batch rows, 256 features and 8 bins, the mean over 1000 samples of
  `max (|x + c| * w + b) 0`, the centre `c`, width `w` and offset `b` taken from three [2048] parameter vectors read as
  [256, 8] tables (feature, bin); the [64, 256, 8] result is returned as [64, 2048].

  The kernel cuts the batch into 16 blocks of 4 rows.  For a block it forms, bin by bin, the [4, 256] slab of means
  (column k of each table laid along the feature axis, the sum taken over the sample axis and divided by 1000) and
  stacks the eight slabs along a last axis.  The reference broadcasts samples and tables to [64, 1000, 256, 8] and
  reduces over the sample axis.  On the extended reals both are the same function `hist` of the four arguments
  (Proof/Spec.lean): the kernel's blocks are the blocks of `hist` and tile the output (Proof/Slab.lean,
  Proof/Block.lean, Proof/Array.lean), the reference is `hist` entry by entry (Proof/RefSide.lean).  The two sides
  use the same sum over the same 1000 terms, the same divisor word and the same zero word, so no law beyond
  `0 + s = s` is needed and the finiteness of the inputs is never used.

  The three frames are the generated frame runs (the reference's is its generated run with the result dropped), and
  the kernel's idealization rewrote nothing, so its statement is `True`.
-/
import proofs.«176398_j4191888081298_2_alg».proof.Defs
import proofs.«176398_j4191888081298_2_alg».proof.Proof.Gen.Kernel
import proofs.«176398_j4191888081298_2_alg».proof.Proof.Gen.Kernel.Skeleton
import proofs.«176398_j4191888081298_2_alg».proof.Proof.Gen.Kernel.Launch
import proofs.«176398_j4191888081298_2_alg».proof.Proof.Gen.Kernel.Points
import proofs.«176398_j4191888081298_2_alg».proof.Proof.Gen.Kernel.Frame
import proofs.«176398_j4191888081298_2_alg».proof.Proof.Gen.KernelIdeal
import proofs.«176398_j4191888081298_2_alg».proof.Proof.Gen.KernelIdeal.Skeleton
import proofs.«176398_j4191888081298_2_alg».proof.Proof.Gen.KernelIdeal.Launch
import proofs.«176398_j4191888081298_2_alg».proof.Proof.Gen.KernelIdeal.Points
import proofs.«176398_j4191888081298_2_alg».proof.Proof.Gen.KernelIdeal.Frame
import proofs.«176398_j4191888081298_2_alg».proof.Proof.Gen.ReferenceIdeal
import proofs.«176398_j4191888081298_2_alg».proof.Proof.Gen.Pre_finite_inputs
import proofs.«176398_j4191888081298_2_alg».proof.Proof.Gen.ReferenceIdeal.Run
import proofs.«176398_j4191888081298_2_alg».proof.Proof.Gen.ReferenceIdeal.Read
import proofs.«176398_j4191888081298_2_alg».proof.Proof.Array
import proofs.«176398_j4191888081298_2_alg».proof.Proof.RefSide
import Idealize.ShloMosaic.Adequacy
import Idealize.ShloMosaic.Init

noncomputable section

namespace Cert.Proof

open Idealize.ShloMosaic Idealize.SL.Sem

/-- The word-level kernel runs and keeps its arguments: its generated frame. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference runs and keeps its arguments: its generated run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the four arguments both programs end with the histogram, viewed [64, 2048]. -/
theorem algebraic : Cert.algebraic_KernelIdeal_ReferenceIdeal := by
  intro m ρ m' ρ' _ hagree
  refine ⟨fun c => Cert.SoftHist.Ker.result m c, Cert.SoftHist.Ker.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v19_eq, Cert.SoftHist.Ref.result_eq,
    (hagree c).1, (hagree c).2.1, (hagree c).2.2.1, (hagree c).2.2.2]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
